-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S512x256 : Shape := ⟨2, ![512, 256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S8192x8192 .f32) (main_arg1 : FVec F S8192x256 .f32) (main_arg2 : FVec F S8192x256 .f32) (main_arg3 : FVec F S512x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S8192x8192 : Shape := ⟨2, ![8192, 8192]⟩
abbrev S8192x256 : Shape := ⟨2, ![8192, 256]⟩
abbrev S512x256 : Shape := ⟨2, ![512, 256]⟩
abbrev S256x256 : Shape := ⟨2, ![256, 256]⟩
abbrev S1024x1024 : Shape := ⟨2, ![1024, 1024]⟩
abbrev S1024x256 : Shape := ⟨2, ![1024, 256]⟩
abbrev S1024x1 : Shape := ⟨2, ![1024, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S512x256, .f32⟩
  | .hbm, ⟨4, _⟩ => ⟨S256x256, .f32⟩
  | .hbm, ⟨5, _⟩ => ⟨S256x256, .f32⟩
  | .hbm, ⟨6, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S256x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S512x256_S256x256_0_0 : S512x256.Slices ![0, 0] S256x256
  slices_S512x256_S256x256_256_0 : S512x256.Slices ![256, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  natLt_1_32 : 1 < 32
  reduces_S1024x1024_S1024 : S1024x1024.Reduces [1] S1024
  shapeCasts_S1024_S1024x1 : S1024.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .f32 = 32 ∨ (Rect.block (s := S8192x256) S1024x256.size (cc0_transform_5 i) (hinb0_5 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x256 : Shape := ⟨2, ![8192, 256]⟩
abbrev S512x256 : Shape := ⟨2, ![512, 256]⟩
abbrev S_ : Shape := ⟨0, ![]⟩
abbrev S8192 : Shape := ⟨1, ![8192]⟩
abbrev S8192x1 : Shape := ⟨2, ![8192, 1]⟩
abbrev S8192x512 : Shape := ⟨2, ![8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x256, .f32⟩
  | .hbm, ⟨2, _⟩ => ⟨S8192x256, .f32⟩
  | .hbm, ⟨3, _⟩ => ⟨S512x256, .f32⟩
  | .hbm, ⟨4, _⟩ => ⟨S_, .f32⟩
  | .hbm, ⟨5, _⟩ => ⟨S8192x8192, .f32⟩
  | .hbm, ⟨6, _⟩ => ⟨S8192x8192, .i1⟩
  | .hbm, ⟨7, _⟩ => ⟨S8192x8192, .i32⟩
  | .hbm, ⟨8, _⟩ => ⟨S_, .i32⟩
  | .hbm, ⟨9, _⟩ => ⟨S8192, .i32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .i1⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S8192x256, .f32⟩
  | .hbm, ⟨28, _⟩ => ⟨S8192x512, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_cst : Ref sig .tc := ⟨.hbm, 30, rfl⟩
abbrev main_call1_v0 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  natLt_1_32 : 1 < 32
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x256_S8192x256_S8192x512_d1 : Shape.Concatenates [S8192x256, S8192x256] S8192x512 1
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x512_S512x256_S8192x256_1_0_0_1_n_n_wf : DotDims.WF S8192x512 S512x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.RefRun.lean ====
/-
  The reference program run: a graph-convolution layer with mean aggregation written with jnp,

      deg   = the count of positive entries per row of A          (a comparison, widened to i32, summed, converted to f32)
      d     = where (deg > 0) (1 / max deg 1) 0
      agg   = (A scaled row by row by d) · V
      out   = max ((agg laid beside U) · W) 0.

  Its @main is a straight line of 29 host operations (the two outlined calls, the select and the final maximum, stand
  in their calls' places).  Every weakly fair execution terminates with the result buffer at the operations' composed
  function of the four arguments, here named `refOut`, and with the arguments unchanged.
-/
import proofs.«151971_j39573828666028_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The number of positive entries in each row of A, as a float. -/
def degOf (A : FVec F S8192x8192 .f32) : FVec F S8192 .f32 :=
  sitofp .f32 (Host.reduce IntOp.addi
    (extui 32 (cmpf .ogt A (broadcastInDim S8192x8192 ![] bcast_S_S8192x8192 (constant S_ .f32 0x00000000#32))) natLt_1_32)
    (constantI S_ 32 0#32) reducesTo_S8192x8192_S8192_d1 h_S_)

/-- The scale of each row: 1 / max deg 1 where deg is positive, 0 elsewhere. -/
def scaleOf (A : FVec F S8192x8192 .f32) : FVec F S8192 .f32 :=
  select (cmpf .ogt (degOf A) (broadcastInDim S8192 ![] bcast_S_S8192 (constant S_ .f32 0x00000000#32)))
    (Host.divf (broadcastInDim S8192 ![] bcast_S_S8192 (constant S_ .f32 0x3F800000#32))
      (maximumf (degOf A) (broadcastInDim S8192 ![] bcast_S_S8192 (constant S_ .f32 0x3F800000#32))))
    (broadcastInDim S8192 ![] bcast_S_S8192 (id (constant S_ .f32 0x00000000#32)))

/-- The reference's result as one function of its four arguments. -/
def refOut (A : FVec F S8192x8192 .f32) (U Vf : FVec F S8192x256 .f32) (W : FVec F S512x256 .f32) : FVec F S8192x256 .f32 :=
  maximumf
    (Host.dotGeneral dot_S8192x512_S512x256_S8192x256_1_0_0_1_n_n none
      (concatenate S8192x512 1
        [⟨S8192x256, Host.dotGeneral dot_S8192x8192_S8192x256_S8192x256_1_0_0_1_n_n none
            (mulf A (broadcastInDim S8192x8192 ![0, 1] bcast_S8192x1_S8192x8192_0_1
              (broadcastInDim S8192x1 ![0] bcast_S8192_S8192x1_0 (scaleOf A)))) Vf⟩,
         ⟨S8192x256, U⟩] concatenates_S8192x256_S8192x256_S8192x512_d1) W)
    (broadcastInDim S8192x256 ![] bcast_S_S8192x256 (constant S_ .f32 0x00000000#32))

/-- @main's 29 operations, in order (a called function's operations stand in its call's place, spelt `TRef.…`). -/
abbrev ops : List (HloOp τ sig (Elt F)) :=
  [ nullary main_cst (constant S_ .f32 0x00000000#32),
    unary main_cst main_v0 (broadcastInDim S8192x8192 ![] bcast_S_S8192x8192 : (⟨S_, .f32⟩ : BufTy).Contents (Elt F) → (⟨S8192x8192, .f32⟩ : BufTy).Contents (Elt F)),
    binary main_arg0 main_v0 main_v1 (cmpf .ogt : (⟨S8192x8192, .f32⟩ : BufTy).Contents (Elt F) → (⟨S8192x8192, .f32⟩ : BufTy).Contents (Elt F) → (⟨S8192x8192, .i1⟩ : BufTy).Contents (Elt F)),
    unary main_v1 main_v2 ((extui 32 · natLt_1_32) : (⟨S8192x8192, .i1⟩ : BufTy).Contents (Elt F) → (⟨S8192x8192, .i32⟩ : BufTy).Contents (Elt F)),
    nullary main_c (constantI S_ 32 0#32),
    binary main_v2 main_c main_v3 ((fun x v => Host.reduce IntOp.addi x v reducesTo_S8192x8192_S8192_d1 h_S_) : (⟨S8192x8192, .i32⟩ : BufTy).Contents (Elt F) → (⟨S_, .i32⟩ : BufTy).Contents (Elt F) → (⟨S8192, .i32⟩ : BufTy).Contents (Elt F)),
    unary main_v3 main_v4 (sitofp .f32 : (⟨S8192, .i32⟩ : BufTy).Contents (Elt F) → (⟨S8192, .f32⟩ : BufTy).Contents (Elt F)),
    nullary main_cst_0 (constant S_ .f32 0x00000000#32),
    unary main_cst_0 main_v5 (broadcastInDim S8192 ![] bcast_S_S8192 : (⟨S_, .f32⟩ : BufTy).Contents (Elt F) → (⟨S8192, .f32⟩ : BufTy).Contents (Elt F)),
    binary main_v4 main_v5 main_v6 (cmpf .ogt : (⟨S8192, .f32⟩ : BufTy).Contents (Elt F) → (⟨S8192, .f32⟩ : BufTy).Contents (Elt F) → (⟨S8192, .i1⟩ : BufTy).Contents (Elt F)),
    nullary main_cst_1 (constant S_ .f32 0x3F800000#32),
    unary main_cst_1 main_v7 (broadcastInDim S8192 ![] bcast_S_S8192 : (⟨S_, .f32⟩ : BufTy).Contents (Elt F) → (⟨S8192, .f32⟩ : BufTy).Contents (Elt F)),
    binary main_v4 main_v7 main_v8 (maximumf : (⟨S8192, .f32⟩ : BufTy).Contents (Elt F) → (⟨S8192, .f32⟩ : BufTy).Contents (Elt F) → (⟨S8192, .f32⟩ : BufTy).Contents (Elt F)),
    nullary main_cst_2 (constant S_ .f32 0x3F800000#32),
    unary main_cst_2 main_v9 (broadcastInDim S8192 ![] bcast_S_S8192 : (⟨S_, .f32⟩ : BufTy).Contents (Elt F) → (⟨S8192, .f32⟩ : BufTy).Contents (Elt F)),
    binary main_v9 main_v8 main_v10 (Host.divf : (⟨S8192, .f32⟩ : BufTy).Contents (Elt F) → (⟨S8192, .f32⟩ : BufTy).Contents (Elt F) → (⟨S8192, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S8192, .f32⟩) main_call0_v1) (broadcastInDim S8192 ![] bcast_S_S8192),
    TRef.ternary (TRef.of (T := ⟨S8192, .i1⟩) main_v6) (TRef.of (T := ⟨S8192, .f32⟩) main_v10) (TRef.of (T := ⟨S8192, .f32⟩) main_call0_v1) (TRef.of (T := ⟨S8192, .f32⟩) main_v11) select,
    unary main_v11 main_v12 (broadcastInDim S8192x1 ![0] bcast_S8192_S8192x1_0 : (⟨S8192, .f32⟩ : BufTy).Contents (Elt F) → (⟨S8192x1, .f32⟩ : BufTy).Contents (Elt F)),
    unary main_v12 main_v13 (broadcastInDim S8192x8192 ![0, 1] bcast_S8192x1_S8192x8192_0_1 : (⟨S8192x1, .f32⟩ : BufTy).Contents (Elt F) → (⟨S8192x8192, .f32⟩ : BufTy).Contents (Elt F)),
    binary main_arg0 main_v13 main_v14 (mulf : (⟨S8192x8192, .f32⟩ : BufTy).Contents (Elt F) → (⟨S8192x8192, .f32⟩ : BufTy).Contents (Elt F) → (⟨S8192x8192, .f32⟩ : BufTy).Contents (Elt F)),
    binary main_v14 main_arg2 main_v15 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v15 main_arg1 main_v16 ((fun a b => concatenate S8192x512 1 [⟨S8192x256, a⟩, ⟨S8192x256, b⟩] concatenates_S8192x256_S8192x256_S8192x512_d1) : (⟨S8192x256, .f32⟩ : BufTy).Contents (Elt F) → (⟨S8192x256, .f32⟩ : BufTy).Contents (Elt F) → (⟨S8192x512, .f32⟩ : BufTy).Contents (Elt F)),
    binary main_v16 main_arg3 main_v17 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x256, .f32⟩) main_call1_v0) (broadcastInDim S8192x256 ![] bcast_S_S8192x256),
    TRef.binary (TRef.of (T := ⟨S8192x256, .f32⟩) main_v17) (TRef.of (T := ⟨S8192x256, .f32⟩) main_call1_v0) (TRef.of (T := ⟨S8192x256, .f32⟩) main_v18) maximumf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., binary_bufs_sub .., binary_bufs_sub .., binary_bufs_sub .., binary_bufs_sub .., nullary_bufs_sub .., unary_bufs_sub .., binary_bufs_sub ..⟩

set_option maxHeartbeats 2000000 in
/-- On every device, from any memory with zero counters: every weakly fair execution of @main terminates with the result
    at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
        = refOut (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v18).trans (by after_results <;> rfl),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end Cert.ReferenceIdeal.RefRun

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.Spec.lean ====
/-
  The mathematics the two programs share, free of either program.

  A graph-convolution layer with mean aggregation: for an adjacency matrix A [n, n], neighbour features V [n, f],
  own features U [n, f] and a weight W [2f, g],

      deg r      = the number of positive entries of row r of A,
      d r        = 1 / max (deg r) 1  when deg r > 0,  and 0 otherwise,
      out (r, o) = max (Σ_c ((Σ_j A[r,j]·V[j,c]) · d r) · W[c,o]  +  Σ_c U[r,c] · W[f+c,o]) 0.

  One program scales the aggregated row by d r after summing over j, accumulating the sum over j in blocks of 1024
  columns; the other scales every entry A[r,j] by d r first, sums over all j at once, lays the aggregate beside U
  and multiplies by the whole W.  This file holds the facts that join them:
    * a sum of 0/1 machine words is the machine word of their count (no overflow is possible in the statement:
      the words add modulo 2³², and so does the count), and its signed reading is the count when that is small;
    * the first 1024·n terms of a sum, block by block;
    * a sum over 512 columns is the sum over the first 256 plus the sum over the last 256;
    * for REAL entries, scaling before or after the sum over j is the same (over the extended reals a product does
      not distribute over a sum when infinities occur, so this is where the inputs' finiteness is used).
-/
import proofs.«151971_j39573828666028_2_alg».proof.Proof.LibRealEntries
import Idealize.ShloMosaic.Lib.WordArith
import Idealize.ShloMosaic.Lib.IdealHost

noncomputable section

namespace Cert.Gcn

open Idealize.ShloMosaic Idealize.ShloMosaic.ValueIdx Cert.RealEntries

/-! ## Counting 0/1 words -/

/-- Words added up from zero: the word of the sum of their values. -/
theorem fold_addi_eq_ofNat {ι : Type} [DecidableEq ι] (s : Finset ι) (f : ι → BitVec 32) :
    s.fold IntOp.addi 0#32 f = BitVec.ofNat 32 (∑ k ∈ s, (f k).toNat) := by
  induction s using Finset.induction_on with
  | empty => rfl
  | insert a s ha ih =>
    rw [Finset.fold_insert ha, Finset.sum_insert ha, ih]
    show f a + BitVec.ofNat 32 _ = _
    rw [BitVec.ofNat_add, BitVec.ofNat_toNat, BitVec.setWidth_eq]

/-- The signed reading of a sum of fewer than 2³¹ words, each 0 or 1, is the sum of their signed readings. -/
theorem count_words {n : ℕ} (hn : n < 2 ^ 31) (g : Fin n → BitVec 32) (hg : ∀ k, (g k).toNat ≤ 1) :
    ((((Finset.univ : Finset (Fin n)).fold IntOp.addi 0#32 g).toInt : ℝ) : EReal)
      = ∑ k : Fin n, (((g k).toInt : ℝ) : EReal) := by
  have hN : ∑ k : Fin n, (g k).toNat ≤ n := by
    calc ∑ k : Fin n, (g k).toNat ≤ ∑ _k : Fin n, 1 := Finset.sum_le_sum fun k _ => hg k
      _ = n := by simp
  have ht : ∀ k, (g k).toInt = ((g k).toNat : ℤ) := fun k => by
    have := hg k
    rw [BitVec.toInt_eq_toNat_cond]
    split
    · rfl
    · omega
  rw [fold_addi_eq_ofNat, WordArith.toInt_ofNat_small _ (by omega), ← coe_sum]
  congr 1
  simp only [ht]
  push_cast
  rfl

/-! ## The 0/1 mark of a positive entry -/

/-- 1 when the entry is positive, 0 otherwise: the comparison's bit, widened to 32 bits and read as a signed integer. -/
def mark (x : EReal) : EReal := ((((Ideal.cmp .ogt x 0).setWidth 32).toInt : ℝ) : EReal)

theorem mark_isR (x : EReal) : IsR (mark x) := ⟨_, rfl⟩

theorem setWidth_bit_le_one (b : BitVec 1) : (b.setWidth 32).toNat ≤ 1 := by
  have h : b.toNat < 2 := b.isLt
  simp only [BitVec.toNat_setWidth]
  have : b.toNat % 2 ^ 32 = b.toNat := Nat.mod_eq_of_lt (by omega)
  omega

/-! ## The row scale -/

/-- 1 / max deg 1 where deg is positive, 0 elsewhere — with the float words of 0.0 and 1.0 as both programs write them. -/
def invDeg (deg : EReal) : EReal :=
  Scalar.select (Ideal.cmp .ogt deg (Ideal.ofBits .f32 0x00000000#32))
    (Ideal.div (Ideal.ofBits .f32 0x3F800000#32) (max deg (Ideal.ofBits .f32 0x3F800000#32)))
    (Ideal.ofBits .f32 0x00000000#32)

/-- The scale of a real count is a real number. -/
theorem invDeg_isR {deg : EReal} (h : IsR deg) : IsR (invDeg deg) := by
  obtain ⟨r, rfl⟩ := h
  unfold invDeg Scalar.select
  split
  · rw [Ideal.ofBits_one_f32]
    have e : max (r : EReal) 1 = ((max r 1 : ℝ) : EReal) :=
      (EReal.coe_strictMono.monotone.map_max (a := r) (b := 1)).symm
    rw [e]
    exact IsR.div ⟨1, rfl⟩ rfl (ne_of_gt (lt_of_lt_of_le one_pos (le_max_right r 1)))
  · rw [Ideal.ofBits_zero_f32]; exact IsR.zero

/-! ## Sums by blocks -/

/-- An index taken modulo 8192: the identity on the indices in range. -/
def wrap (j : ℕ) : Fin 8192 := ⟨j % 8192, Nat.mod_lt _ (by norm_num)⟩

theorem wrap_val {j : ℕ} (h : j < 8192) : (wrap j).val = j := Nat.mod_eq_of_lt h

theorem wrap_fin (j : Fin 8192) : wrap j.val = j := Fin.ext (wrap_val j.isLt)

/-- The first 1024·n terms. -/
def psum (f : ℕ → EReal) (n : ℕ) : EReal := ∑ j ∈ Finset.range (1024 * n), f j

theorem psum_zero (f : ℕ → EReal) : psum f 0 = 0 := by simp [psum]

/-- One more block of 1024 terms. -/
theorem psum_succ (f : ℕ → EReal) (n : ℕ) : psum f (n + 1) = psum f n + ∑ j : Fin 1024, f (1024 * n + j.val) := by
  unfold psum
  rw [show 1024 * (n + 1) = 1024 * n + 1024 by ring, Finset.sum_range_add,
    Fin.sum_univ_eq_sum_range (fun j => f (1024 * n + j)) 1024]

/-- Eight blocks are all 8192 terms. -/
theorem psum_eight (f : ℕ → EReal) : psum f 8 = ∑ j : Fin 8192, f j.val := by
  unfold psum
  rw [Fin.sum_univ_eq_sum_range f 8192]

/-- A sum over 512 columns: the first 256, then the last 256. -/
theorem sum_halves (g : Fin 512 → EReal) :
    ∑ c : Fin 512, g c = ∑ c : Fin 256, g ⟨c.val, by omega⟩ + ∑ c : Fin 256, g ⟨256 + c.val, by omega⟩ :=
  Fin.sum_univ_add (a := 256) (b := 256) g

/-! ## Scaling a row before or after the sum -/

/-- For real entries, Σ_j (a j · d) · v j = (Σ_j a j · v j) · d. -/
theorem scale_row {K : ℕ} (a v : Fin K → EReal) (d : EReal) (ha : ∀ j, IsR (a j)) (hv : ∀ j, IsR (v j)) (hd : IsR d) :
    ∑ j : Fin K, (a j * d) * v j = (∑ j : Fin K, a j * v j) * d := by
  choose a' ha' using ha
  choose v' hv' using hv
  obtain ⟨d', rfl⟩ := hd
  simp only [ha', hv', ← EReal.coe_mul, ← coe_sum]
  rw [EReal.coe_eq_coe_iff, Finset.sum_mul]
  exact Finset.sum_congr rfl fun j _ => by ring

/-! ## The layer as one function of its arguments -/

/-- An [a, b] matrix of extended reals. -/
abbrev Mat (a b : ℕ) : Type := (⟨2, ![a, b]⟩ : Shape).Idx → EReal

/-- A[R, j] · V[j, q]: the j-th term of row R's aggregate at feature q. -/
def aggTerm (A : Mat 8192 8192) (Vf : Mat 8192 256) (R : ℕ) (q : Fin 256) (j : ℕ) : EReal :=
  A (ix2 (wrap R) (wrap j)) * Vf (ix2 (wrap j) q)

/-- The mark of A[R, j]: the j-th term of row R's degree. -/
def degTerm (A : Mat 8192 8192) (R j : ℕ) : EReal := mark (A (ix2 (wrap R) (wrap j)))

/-- Row c of the weight's top half, and of its bottom half, as rows of the whole weight. -/
def topRow (c : Fin 256) : Fin 512 := ⟨c.val, by omega⟩
def botRow (c : Fin 256) : Fin 512 := ⟨256 + c.val, by omega⟩

/-- The layer at (r, o), scaling the aggregated row after the sum over the neighbours. -/
def layer (A : Mat 8192 8192) (U Vf : Mat 8192 256) (W : Mat 512 256) (r : Fin 8192) (o : Fin 256) : EReal :=
  max (∑ c : Fin 256, ((∑ j : Fin 8192, aggTerm A Vf r.val c j.val) * invDeg (∑ j : Fin 8192, degTerm A r.val j.val))
          * W (ix2 (topRow c) o)
        + ∑ c : Fin 256, U (ix2 r c) * W (ix2 (botRow c) o))
    (Ideal.ofBits .f32 0x00000000#32)

end Cert.Gcn

end
-- ==== Proof.KernelPieces.lean ====
/-
  What one grid point leaves behind, case by case, as the body's arithmetic.

  The body runs in three cases along the reduction axis k of the grid (i, k):
    first  (k = 0): both accumulators are zeroed, then the point's contribution is added;
    middle (0 < k < 7): the point's contribution is added to what the point before left;
    last   (k = 7): as in the middle, and then the output block is computed from the two accumulators.
  With x0 the adjacency block, x1 the neighbour-feature block, x2 the own-feature block, x3 and x4 the two halves of
  the weight, acc the aggregate accumulator and cnt the degree accumulator:
    the aggregate accumulator ends at   step x0 x1 acc   (acc + x0·x1),
    the degree accumulator ends at      count x0 cnt     (cnt + the number of positive entries per row of x0),
    and at the last point the output block is  finish  of the two updated accumulators and x2, x3, x4.
  Each lemma reads the stores the run found for a buffer back as one of these terms: a store that covers the whole
  buffer decides its contents, and a load that follows a covering store reads what was stored.
-/
import proofs.«151971_j39573828666028_2_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem
open Idealize.ShloMosaic.Pipeline (Dat)

namespace Cert.Gcn.Pieces

open Cert.KernelIdeal Cert.KernelIdeal.Gen

variable {F : FTy → Type} [FloatOps F]

theorem hz : (![0, 0] : Fin 2 → Nat) = fun _ => 0 := funext fun a => by fin_cases a <;> rfl

/-- Middle point, aggregate accumulator: the contribution added to what the point before left. -/
theorem agg_B (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : ¬cond0_0 i) (hc1 : ¬cond0_1 i) (x0 : Vec F S1024x1024 .f32) (x1 : Vec F S1024x256 .f32) (x2 : Vec F S1024x256 .f32) (x3 : Vec F S256x256 .f32) (x4 : Vec F S256x256 .f32) (xs0 : Vec F S1024x256 .f32) (xs1 : Vec F S1024x1 .f32) :
    sout0_B_0 c i a2 h2 a3 h3 a4 h4 a5 h5 a6 h6 a7 h7 a8 h8 a9 h9 hc0 hc1 x0 x1 x2 x3 x4 xs0 xs1 = k0_pay5 x0 x1 xs0 := by
  unfold sout0_B_0
  rw [View.read_writes_eq_canon _ _ _ (scover0_B_0 c i a2 h2 a3 h3 a4 h4 a5 h5 a6 h6 a7 h7 a8 h8 a9 h9 hc0 hc1 x0 x1 x2 x3 x4 xs0 xs1)]
  unfold kernelRun0_B
  dsimp only
  rw [View.canon_unit_zero hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

/-- Middle point, degree accumulator. -/
theorem deg_B (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : ¬cond0_0 i) (hc1 : ¬cond0_1 i) (x0 : Vec F S1024x1024 .f32) (x1 : Vec F S1024x256 .f32) (x2 : Vec F S1024x256 .f32) (x3 : Vec F S256x256 .f32) (x4 : Vec F S256x256 .f32) (xs0 : Vec F S1024x256 .f32) (xs1 : Vec F S1024x1 .f32) :
    sout0_B_1 c i a2 h2 a3 h3 a4 h4 a5 h5 a6 h6 a7 h7 a8 h8 a9 h9 hc0 hc1 x0 x1 x2 x3 x4 xs0 xs1 = k0_pay4 x0 xs1 := by
  unfold sout0_B_1
  rw [View.read_writes_eq_canon _ _ _ (scover0_B_1 c i a2 h2 a3 h3 a4 h4 a5 h5 a6 h6 a7 h7 a8 h8 a9 h9 hc0 hc1 x0 x1 x2 x3 x4 xs0 xs1)]
  unfold kernelRun0_B
  dsimp only
  rw [View.canon_unit_zero hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

/-- Last point, aggregate accumulator. -/
theorem agg_C (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : ¬cond0_0 i) (hc1 : cond0_1 i) (x0 : Vec F S1024x1024 .f32) (x1 : Vec F S1024x256 .f32) (x2 : Vec F S1024x256 .f32) (x3 : Vec F S256x256 .f32) (x4 : Vec F S256x256 .f32) (xs0 : Vec F S1024x256 .f32) (xs1 : Vec F S1024x1 .f32) :
    sout0_C_0 c i a2 h2 a3 h3 a4 h4 a5 h5 a6 h6 a7 h7 a8 h8 a9 h9 hc0 hc1 x0 x1 x2 x3 x4 xs0 xs1 = k0_pay5 x0 x1 xs0 := by
  unfold sout0_C_0
  rw [View.read_writes_eq_canon _ _ _ (scover0_C_0 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

/-- Last point, degree accumulator. -/
theorem deg_C (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : ¬cond0_0 i) (hc1 : cond0_1 i) (x0 : Vec F S1024x1024 .f32) (x1 : Vec F S1024x256 .f32) (x2 : Vec F S1024x256 .f32) (x3 : Vec F S256x256 .f32) (x4 : Vec F S256x256 .f32) (xs0 : Vec F S1024x256 .f32) (xs1 : Vec F S1024x1 .f32) :
    sout0_C_1 c i a2 h2 a3 h3 a4 h4 a5 h5 a6 h6 a7 h7 a8 h8 a9 h9 hc0 hc1 x0 x1 x2 x3 x4 xs0 xs1 = k0_pay4 x0 xs1 := by
  unfold sout0_C_1
  rw [View.read_writes_eq_canon _ _ _ (scover0_C_1 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

/-- Last point, the output block: computed from the two accumulators as this very point updated them. -/
theorem out_C (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : ¬cond0_0 i) (hc1 : cond0_1 i) (x0 : Vec F S1024x1024 .f32) (x1 : Vec F S1024x256 .f32) (x2 : Vec F S1024x256 .f32) (x3 : Vec F S256x256 .f32) (x4 : Vec F S256x256 .f32) (xs0 : Vec F S1024x256 .f32) (xs1 : Vec F S1024x1 .f32) :
    out0_C_5 c i a2 h2 a3 h3 a4 h4 a5 h5 a6 h6 a7 h7 a8 h8 a9 h9 hc0 hc1 x0 x1 x2 x3 x4 xs0 xs1 = k0_pay6 (k0_pay4 x0 xs1) (k0_pay5 x0 x1 xs0) x2 x3 x4 := by
  unfold out0_C_5
  rw [View.read_writes_eq_canon _ _ _ (cover0_C_5 c i a2 h2 a3 h3 a4 h4 a5 h5 a6 h6 a7 h7 a8 h8 a9 h9 hc0 hc1 x0 x1 x2 x3 x4 xs0 xs1)]
  unfold kernelRun0_C
  dsimp only
  sl_unfold_words
  rw [View.canon_unit_zero hz, View.readCov_unit_zero (S := S1024x1) _ hz, View.readCov_unit_zero (S := S1024x256) _ hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

/-- First point, aggregate accumulator: the contribution added to the zero block just stored. -/
theorem agg_A (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : cond0_0 i) (hc1 : ¬cond0_1 i) (x0 : Vec F S1024x1024 .f32) (x1 : Vec F S1024x256 .f32) (x2 : Vec F S1024x256 .f32) (x3 : Vec F S256x256 .f32) (x4 : Vec F S256x256 .f32) :
    sout0_A_0 c i a2 h2 a3 h3 a4 h4 a5 h5 a6 h6 a7 h7 a8 h8 a9 h9 hc0 hc1 x0 x1 x2 x3 x4 = k0_pay5 x0 x1 k0_pay1 := by
  unfold sout0_A_0
  rw [View.read_writes_eq_canon _ _ _ (scover0_A_0 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x256) hz, View.readCov_unit_zero (S := S1024x256) _ hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

/-- First point, degree accumulator. -/
theorem deg_A (c : Dev nD) (i : grid0.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S256x256 .f32) (h5 : a5.IsWhole) (a6 : Memref sig .tc .vmem S256x256 .f32) (h6 : a6.IsWhole) (a7 : Memref sig .tc .vmem S1024x256 .f32) (h7 : a7.IsWhole) (a8 : Memref sig .tc .vmem S1024x256 .f32) (h8 : a8.IsWhole) (a9 : Memref sig .tc .vmem S1024x1 .f32) (h9 : a9.IsWhole) (hc0 : cond0_0 i) (hc1 : ¬cond0_1 i) (x0 : Vec F S1024x1024 .f32) (x1 : Vec F S1024x256 .f32) (x2 : Vec F S1024x256 .f32) (x3 : Vec F S256x256 .f32) (x4 : Vec F S256x256 .f32) :
    sout0_A_1 c i a2 h2 a3 h3 a4 h4 a5 h5 a6 h6 a7 h7 a8 h8 a9 h9 hc0 hc1 x0 x1 x2 x3 x4 = k0_pay4 x0 k0_pay2 := by
  unfold sout0_A_1
  rw [View.read_writes_eq_canon _ _ _ (scover0_A_1 c i a2 h2 a3 h3 a4 h4 a5 h5 a6 h6 a7 h7 a8 h8 a9 h9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h8.read_unread, h9.read_unread,
    View.ld_unit_zero (S := S1024x1024) hz, View.ld_unit_zero (S := S1024x256) hz, View.ld_unit_zero (S := S1024x1) hz, View.ld_unit_zero (S := S256x256) hz]

end Cert.Gcn.Pieces
end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.KernelPayloads.lean ====
/-
  The body's arithmetic at an entry, over the extended reals.

  With the blocks read as matrices (x0 the adjacency block [1024,1024], x1 the neighbour-feature block [1024,256],
  x2 the own-feature block, x3 and x4 the two [256,256] halves of the weight, acc [1024,256] and cnt [1024,1] the two
  accumulators):
      step   at (p, q):  acc[p,q] + Σ_j x0[p,j] · x1[j,q]                 (a matrix product into zeros, then an add)
      count  at (p, 0):  cnt[p,0] + Σ_j mark x0[p,j]                      (the 0/1 marks summed along the row)
      finish at (p, o):  max (Σ_c (acc[p,c] · invDeg cnt[p,0]) · x3[c,o] + Σ_c x2[p,c] · x4[c,o]) 0.
  Over the extended reals a change of float format is the identity, so the casts to and from bf16 vanish.
-/
import proofs.«151971_j39573828666028_2_alg».proof.Proof.Gen.KernelIdeal.Skeleton
import proofs.«151971_j39573828666028_2_alg».proof.Proof.Spec
import proofs.«151971_j39573828666028_2_alg».proof.Proof.LibMatmulNN
import proofs.«151971_j39573828666028_2_alg».proof.Proof.LibKeepdimsColumn
import proofs.«151971_j39573828666028_2_alg».proof.Proof.LibSlabLayout
import Idealize.ShloMosaic.Lib.IdealHost
import Idealize.ShloMosaic.Lib.Pipeline.Value
import Idealize.ShloMosaic.Lib.ValueIdx

noncomputable section

namespace Cert.Gcn.Payloads

open Idealize.ShloMosaic Idealize.ShloMosaic.ValueIdx Cert.KernelIdeal Cert.KernelIdeal.Gen Cert.Gcn

/-- One step of the aggregate: the block product added to the accumulator. -/
theorem step_apply (x0 : Vec Ideal S1024x1024 .f32) (x1 acc : Vec Ideal S1024x256 .f32) (p : Fin 1024) (q : Fin 256) :
    k0_pay5 (F := Ideal) x0 x1 acc (ix2 p q) = acc (ix2 p q) + ∑ j : Fin 1024, x0 (ix2 p j) * x1 (ix2 j q) := by
  unfold k0_pay5 k0_pay3
  dsimp only
  simp only [shapeCast_self]
  refine (addf_apply _ _ _).trans ?_
  refine congrArg (acc (ix2 p q) + ·) ?_
  exact Cert.MatmulNN.matmul_zero_apply dot_S1024x1024_S1024x256_S1024x256_1_0_0_1_n_n rfl none _ _ p q

/-- One step of the degree: the row's marks added to the accumulator. -/
theorem count_apply (x0 : Vec Ideal S1024x1024 .f32) (cnt : Vec Ideal S1024x1 .f32) (p : Fin 1024) (u : Fin 1) :
    k0_pay4 (F := Ideal) x0 cnt (ix2 p u) = cnt (ix2 p u) + ∑ j : Fin 1024, mark (x0 (ix2 p j)) := by
  unfold k0_pay4 k0_pay3
  dsimp only
  simp only [shapeCast_self]
  refine (addf_apply _ _ _).trans ?_
  refine congrArg (cnt (ix2 p u) + ·) ?_
  refine (Cert.KeepdimsColumn.shapeCast_a_a1_apply _ _ p u).trans ?_
  refine (Cert.SlabLayout.rowSum_apply _ _ _ _ _ p).trans ?_
  refine Finset.sum_congr rfl fun j _ => ?_
  show ((((Ideal.cmp .ogt (x0 (ix2 p j)) (Ideal.ofBits .bf16 0x0000#16)).setWidth 32).toInt : ℝ) : EReal) = mark _
  unfold mark
  rw [Ideal.ofBits_zero_bf16]

/-- The output block from the two accumulators. -/
theorem finish_apply (cnt : Vec Ideal S1024x1 .f32) (acc x2 : Vec Ideal S1024x256 .f32) (x3 x4 : Vec Ideal S256x256 .f32)
    (p : Fin 1024) (o : Fin 256) :
    k0_pay6 (F := Ideal) cnt acc x2 x3 x4 (ix2 p o)
      = max (∑ c : Fin 256, (acc (ix2 p c) * invDeg (cnt (ix2 p (0 : Fin 1)))) * x3 (ix2 c o)
              + ∑ c : Fin 256, x2 (ix2 p c) * x4 (ix2 c o)) (Ideal.ofBits .f32 0x00000000#32) := by
  unfold k0_pay6
  simp only [shapeCast_self]
  refine (maximumf_apply _ _ _).trans ?_
  refine congrArg₂ max ?_ rfl
  refine (addf_apply _ _ _).trans ?_
  refine congrArg₂ (· + ·) ?_ ?_
  · refine (Cert.MatmulNN.matmul_zero_apply dot_S1024x256_S256x256_S1024x256_1_0_0_1_n_n rfl none _ _ p o).trans ?_
    refine Finset.sum_congr rfl fun c _ => ?_
    refine congrArg (· * x3 (ix2 c o)) ?_
    refine (mulf_apply _ _ _).trans ?_
    refine congrArg (acc (ix2 p c) * ·) ?_
    refine (Cert.KeepdimsColumn.broadcastTo_a1_ab_apply _ _ p c).trans ?_
    rfl
  · exact Cert.MatmulNN.matmul_zero_apply dot_S1024x256_S256x256_S1024x256_1_0_0_1_n_n rfl none _ _ p o

end Cert.Gcn.Payloads

end
-- ==== Proof.KernelBlocks.lean ====
/-
  Which entries of the whole arrays a grid point's blocks hold.

  The grid is 8 × 8, a point t = 8·i + k (row block i, column block k).  At point t
      the adjacency block        is A[1024·i + p, 1024·k + j],
      the neighbour-feature block is V[1024·k + j, q],
      the own-feature block      is U[1024·i + p, q],
      the two weight blocks      are the top half W[a, b] and the bottom half W[256 + a, b] of the weight
                                  (the host slices the weight in two before the call),
  for p, j < 1024 and q, a, b < 256.  Row and column numbers are written through `wrap` (the number modulo 8192): they
  are in range, so `wrap` changes nothing, and no proof of the bound has to travel with the number.
-/
import proofs.«151971_j39573828666028_2_alg».proof.Proof.Gen.KernelIdeal.Frame
import proofs.«151971_j39573828666028_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.Gcn.Blocks

open Cert.KernelIdeal Cert.KernelIdeal.Gen Idealize.ShloMosaic.ValueIdx Cert.Gcn

variable {F : FTy → Type} [FloatOps F]
variable (m : (ℓ : Loc nD τ sig) → Buf (Elt F) ℓ)

theorem point_lt (t : Fin cfg0.N) : t.val < 64 := lt_of_lt_of_eq t.isLt N_0

/-- The block numbers of the six windows at point t = 8·i + k: (i, k), (k, 0), (i, 0), (0, 0), (0, 0), (i, 0). -/
theorem idx_facts : ∀ t : Fin cfg0.N,
    (win0_0.index t (0 : Fin 2) = t.val / 8 ∧ win0_0.index t (1 : Fin 2) = t.val % 8)
    ∧ (win0_1.index t (0 : Fin 2) = t.val % 8 ∧ win0_1.index t (1 : Fin 2) = 0)
    ∧ (win0_2.index t (0 : Fin 2) = t.val / 8 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val / 8 ∧ win0_5.index t (1 : Fin 2) = 0) :=
  (by decide +kernel : ∀ t : Fin grid0.N, _)

/-- The adjacency block. -/
theorem adj_block (c : Dev nD) (t : Fin cfg0.N) (p j : Fin 1024) :
    (iblk m c 0 t : Vec F S1024x1024 .f32) (ix2 p j)
      = m ((c : Thread nD τ).loc main_arg0) (ix2 (wrap (1024 * (t.val / 8) + p.val)) (wrap (1024 * (t.val % 8) + j.val))) := by
  obtain ⟨⟨h0, h1⟩, -⟩ := idx_facts t
  have ht := point_lt t
  unfold iblk
  rw [View.read_apply]
  refine (congrFun (V_main_arg0 m c) _).trans ?_
  refine congrArg (m ((c : Thread nD τ).loc main_arg0)) ?_
  funext a
  apply Fin.ext
  match a with
  | ⟨0, _⟩ => show win0_0.index t 0 * 1024 + 1 * p.val = (1024 * (t.val / 8) + p.val) % 8192; rw [h0]; omega
  | ⟨1, _⟩ => show win0_0.index t 1 * 1024 + 1 * j.val = (1024 * (t.val % 8) + j.val) % 8192; rw [h1]; omega

/-- The neighbour-feature block. -/
theorem nbr_block (c : Dev nD) (t : Fin cfg0.N) (j : Fin 1024) (q : Fin 256) :
    (iblk m c 1 t : Vec F S1024x256 .f32) (ix2 j q)
      = m ((c : Thread nD τ).loc main_arg2) (ix2 (wrap (1024 * (t.val % 8) + j.val)) q) := by
  obtain ⟨-, ⟨h0, h1⟩, -⟩ := idx_facts t
  have ht := point_lt t
  unfold iblk
  rw [View.read_apply]
  refine (congrFun (V_main_arg2 m c) _).trans ?_
  refine congrArg (m ((c : Thread nD τ).loc main_arg2)) ?_
  funext a
  apply Fin.ext
  match a with
  | ⟨0, _⟩ => show win0_1.index t 0 * 1024 + 1 * j.val = (1024 * (t.val % 8) + j.val) % 8192; rw [h0]; omega
  | ⟨1, _⟩ => show win0_1.index t 1 * 256 + 1 * q.val = q.val; rw [h1]; omega

/-- The own-feature block. -/
theorem own_block (c : Dev nD) (t : Fin cfg0.N) (p : Fin 1024) (q : Fin 256) :
    (iblk m c 2 t : Vec F S1024x256 .f32) (ix2 p q)
      = m ((c : Thread nD τ).loc main_arg1) (ix2 (wrap (1024 * (t.val / 8) + p.val)) q) := by
  obtain ⟨-, -, ⟨h0, h1⟩, -⟩ := idx_facts t
  have ht := point_lt t
  unfold iblk
  rw [View.read_apply]
  refine (congrFun (V_main_arg1 m c) _).trans ?_
  refine congrArg (m ((c : Thread nD τ).loc main_arg1)) ?_
  funext a
  apply Fin.ext
  match a with
  | ⟨0, _⟩ => show win0_2.index t 0 * 1024 + 1 * p.val = (1024 * (t.val / 8) + p.val) % 8192; rw [h0]; omega
  | ⟨1, _⟩ => show win0_2.index t 1 * 256 + 1 * q.val = q.val; rw [h1]; omega

/-- What the host leaves in the first slice: the top half of the weight. -/
theorem V_top (c : Dev nD) :
    (V m c main_v0 : Vec F S256x256 .f32)
      = extractStridedSlice S256x256 ![0, 0] (m ((c : Thread nD τ).loc main_arg3)) slices_S512x256_S256x256_0_0 := by
  dsimp only [V, hostOps0]; after_results <;> rfl

/-- What the host leaves in the second slice: the bottom half of the weight. -/
theorem V_bot (c : Dev nD) :
    (V m c main_v1 : Vec F S256x256 .f32)
      = extractStridedSlice S256x256 ![256, 0] (m ((c : Thread nD τ).loc main_arg3)) slices_S512x256_S256x256_256_0 := by
  dsimp only [V, hostOps0]; after_results <;> rfl

/-- The first weight block: the top half of the weight. -/
theorem top_block (c : Dev nD) (t : Fin cfg0.N) (a b : Fin 256) :
    (iblk m c 3 t : Vec F S256x256 .f32) (ix2 a b)
      = m ((c : Thread nD τ).loc main_arg3) (ix2 (topRow a) b) := by
  obtain ⟨-, -, -, ⟨h0, h1⟩, -⟩ := idx_facts t
  unfold iblk
  rw [View.read_apply]
  refine (congrFun (V_top m c) _).trans ?_
  refine extractStridedSlice_apply _ _ _ _ _ fun d => ?_
  match d with
  | ⟨0, _⟩ => show a.val = 0 + (win0_3.index t 0 * 256 + 1 * a.val); rw [h0]; omega
  | ⟨1, _⟩ => show b.val = 0 + (win0_3.index t 1 * 256 + 1 * b.val); rw [h1]; omega

/-- The second weight block: the bottom half of the weight. -/
theorem bot_block (c : Dev nD) (t : Fin cfg0.N) (a b : Fin 256) :
    (iblk m c 4 t : Vec F S256x256 .f32) (ix2 a b)
      = m ((c : Thread nD τ).loc main_arg3) (ix2 (botRow a) b) := by
  obtain ⟨-, -, -, -, ⟨h0, h1⟩, -⟩ := idx_facts t
  unfold iblk
  rw [View.read_apply]
  refine (congrFun (V_bot m c) _).trans ?_
  refine extractStridedSlice_apply _ _ _ _ _ fun d => ?_
  match d with
  | ⟨0, _⟩ => show 256 + a.val = 256 + (win0_4.index t 0 * 256 + 1 * a.val); rw [h0]; omega
  | ⟨1, _⟩ => show b.val = 0 + (win0_4.index t 1 * 256 + 1 * b.val); rw [h1]; omega

end Cert.Gcn.Blocks

end
-- ==== Proof.KernelAccum.lean ====
/-
  The two accumulators along a row block's run of eight grid points, and the output block at the run's last point.

  Row block i is visited at the points t = 8·i + k, k = 0 … 7.  After point t the aggregate accumulator holds, at
  (p, q), the first 1024·(k+1) terms of  Σ_j A[1024·i + p, j] · V[j, q],  and the degree accumulator holds, at (p, 0),
  the first 1024·(k+1) terms of  Σ_j mark A[1024·i + p, j]:  the first point starts from zero and adds block 0, every
  later point adds its block to what the point before left.  By induction on the point.  After the last point of the
  run (k = 7) both sums are complete, and the output block is the layer's value at the rows 1024·i + p.
-/
import proofs.«151971_j39573828666028_2_alg».proof.Proof.Gen.KernelIdeal.Frame
import proofs.«151971_j39573828666028_2_alg».proof.Proof.Spec
import proofs.«151971_j39573828666028_2_alg».proof.Proof.KernelPieces
import proofs.«151971_j39573828666028_2_alg».proof.Proof.KernelPayloads
import proofs.«151971_j39573828666028_2_alg».proof.Proof.KernelBlocks

set_option maxRecDepth 16384

noncomputable section

open Idealize.ShloMosaic Idealize.ShloMosaic.TcCoe Idealize.SL.Sem
open Idealize.ShloMosaic.Pipeline (Dat)

namespace Cert.Gcn.Accum

open Cert.KernelIdeal Cert.KernelIdeal.Gen Idealize.ShloMosaic.ValueIdx Cert.Gcn

variable (m : (ℓ : Loc nD τ sig) → Buf (Elt Ideal) ℓ)

/-- The four arguments as the kernel is launched with them. -/
abbrev argA (c : Dev nD) : Mat 8192 8192 := m ((c : Thread nD τ).loc main_arg0)
abbrev argU (c : Dev nD) : Mat 8192 256 := m ((c : Thread nD τ).loc main_arg1)
abbrev argV (c : Dev nD) : Mat 8192 256 := m ((c : Thread nD τ).loc main_arg2)
abbrev argW (c : Dev nD) : Mat 512 256 := m ((c : Thread nD τ).loc main_arg3)

/-! ## What each case leaves, at a symbolic point -/

theorem agg_first (c : Dev nD) (t : Fin cfg0.N) (h0 : t.val % 8 = 0) (h1 : ¬t.val % 8 = 7) :
    (outsAt0 m c t.val t.isLt).2.1 = k0_pay5 (iblk m c 0 t) (iblk m c 1 t) (k0_pay1 (F := Ideal)) := by
  rw [outsAt0_A m c t h0 h1]
  dsimp only
  exact Pieces.agg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem deg_first (c : Dev nD) (t : Fin cfg0.N) (h0 : t.val % 8 = 0) (h1 : ¬t.val % 8 = 7) :
    (outsAt0 m c t.val t.isLt).2.2 = k0_pay4 (iblk m c 0 t) (k0_pay2 (F := Ideal)) := by
  rw [outsAt0_A m c t h0 h1]
  dsimp only
  exact Pieces.deg_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)

theorem agg_next (c : Dev nD) (t : Fin cfg0.N) (h0 : ¬t.val % 8 = 0) :
    (outsAt0 m c t.val t.isLt).2.1
      = k0_pay5 (iblk m c 0 t) (iblk m c 1 t) (outsAt0 m c (t.val - 1) (Nat.lt_of_le_of_lt (Nat.sub_le _ _) t.isLt)).2.1 := by
  by_cases h1 : t.val % 8 = 7
  · rw [outsAt0_C m c t h0 h1]
    dsimp only
    exact Pieces.agg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.agg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

theorem deg_next (c : Dev nD) (t : Fin cfg0.N) (h0 : ¬t.val % 8 = 0) :
    (outsAt0 m c t.val t.isLt).2.2
      = k0_pay4 (iblk m c 0 t) (outsAt0 m c (t.val - 1) (Nat.lt_of_le_of_lt (Nat.sub_le _ _) t.isLt)).2.2 := by
  by_cases h1 : t.val % 8 = 7
  · rw [outsAt0_C m c t h0 h1]
    dsimp only
    exact Pieces.deg_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h1]
    dsimp only
    exact Pieces.deg_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

theorem out_last (c : Dev nD) (t : Fin cfg0.N) (h0 : ¬t.val % 8 = 0) (h1 : t.val % 8 = 7) :
    (outsAt0 m c t.val t.isLt).1
      = k0_pay6 (outsAt0 m c t.val t.isLt).2.2 (outsAt0 m c t.val t.isLt).2.1 (iblk m c 2 t) (iblk m c 3 t) (iblk m c 4 t) := by
  rw [agg_next m c t h0, deg_next m c t h0, outsAt0_C m c t h0 h1]
  dsimp only
  exact Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-! ## One more block of each sum -/

theorem agg_step (c : Dev nD) (t : Fin cfg0.N) (acc : Vec Ideal S1024x256 .f32) (p : Fin 1024) (q : Fin 256)
    (hacc : acc (ix2 p q) = psum (aggTerm (argA m c) (argV m c) (1024 * (t.val / 8) + p.val) q) (t.val % 8)) :
    k0_pay5 (F := Ideal) (iblk m c 0 t) (iblk m c 1 t) acc (ix2 p q)
      = psum (aggTerm (argA m c) (argV m c) (1024 * (t.val / 8) + p.val) q) (t.val % 8 + 1) := by
  refine (Payloads.step_apply (iblk m c 0 t) (iblk m c 1 t) acc p q).trans ?_
  rw [hacc, psum_succ]
  refine congrArg (_ + ·) (Finset.sum_congr rfl fun j _ => ?_)
  rw [Blocks.adj_block m c t p j, Blocks.nbr_block m c t j q]
  rfl

theorem deg_step (c : Dev nD) (t : Fin cfg0.N) (cnt : Vec Ideal S1024x1 .f32) (p : Fin 1024) (u : Fin 1)
    (hcnt : cnt (ix2 p u) = psum (degTerm (argA m c) (1024 * (t.val / 8) + p.val)) (t.val % 8)) :
    k0_pay4 (F := Ideal) (iblk m c 0 t) cnt (ix2 p u)
      = psum (degTerm (argA m c) (1024 * (t.val / 8) + p.val)) (t.val % 8 + 1) := by
  refine (Payloads.count_apply (iblk m c 0 t) cnt p u).trans ?_
  rw [hcnt, psum_succ]
  refine congrArg (_ + ·) (Finset.sum_congr rfl fun j _ => ?_)
  rw [Blocks.adj_block m c t p j]
  rfl

/-! ## The accumulators after each point -/

/-- After point n both accumulators hold the first 1024·(n mod 8 + 1) terms of their sums. -/
def Partial (c : Dev nD) (n : ℕ) (hn : n < cfg0.N) : Prop :=
  (∀ (p : Fin 1024) (q : Fin 256),
      (outsAt0 m c n hn).2.1 (ix2 p q) = psum (aggTerm (argA m c) (argV m c) (1024 * (n / 8) + p.val) q) (n % 8 + 1))
  ∧ (∀ (p : Fin 1024) (u : Fin 1),
      (outsAt0 m c n hn).2.2 (ix2 p u) = psum (degTerm (argA m c) (1024 * (n / 8) + p.val)) (n % 8 + 1))

theorem partial_step (c : Dev nD) (t : Fin cfg0.N)
    (ih : ¬t.val % 8 = 0 → Partial m c (t.val - 1) (Nat.lt_of_le_of_lt (Nat.sub_le _ _) t.isLt)) : Partial m c t.val t.isLt := by
  by_cases h0 : t.val % 8 = 0
  · have h1 : ¬t.val % 8 = 7 := by omega
    refine ⟨fun p q => ?_, fun p u => ?_⟩
    · rw [agg_first m c t h0 h1]
      refine agg_step m c t _ p q ?_
      rw [h0, psum_zero]
      exact Ideal.ofBits_zero_f32
    · rw [deg_first m c t h0 h1]
      refine deg_step m c t _ p u ?_
      rw [h0, psum_zero]
      exact Ideal.ofBits_zero_f32
  · obtain ⟨ihA, ihD⟩ := ih h0
    have e1 : (t.val - 1) / 8 = t.val / 8 := by omega
    have e2 : (t.val - 1) % 8 + 1 = t.val % 8 := by omega
    refine ⟨fun p q => ?_, fun p u => ?_⟩
    · rw [agg_next m c t h0]
      refine agg_step m c t _ p q ?_
      rw [ihA p q, e1, e2]
    · rw [deg_next m c t h0]
      refine deg_step m c t _ p u ?_
      rw [ihD p u, e1, e2]

theorem partial_all (c : Dev nD) : ∀ (n : ℕ) (hn : n < cfg0.N), Partial m c n hn := by
  intro n
  induction n with
  | zero => intro hn; exact partial_step m c ⟨0, hn⟩ (fun h => absurd rfl h)
  | succ n ih => intro hn; exact partial_step m c ⟨n + 1, hn⟩ (fun _ => ih (Nat.lt_of_succ_lt hn))

/-! ## The output block at the last point of a run -/

/-- At the last point of row block i's run, the output block at (p, o) is the layer at row 1024·i + p. -/
theorem out_block (c : Dev nD) (t : Fin cfg0.N) (h1 : t.val % 8 = 7) (p : Fin 1024) (o : Fin 256) (r : Fin 8192)
    (hr : r.val = 1024 * (t.val / 8) + p.val) :
    (outsAt0 m c t.val t.isLt).1 (ix2 p o) = layer (argA m c) (argU m c) (argV m c) (argW m c) r o := by
  have h0 : ¬t.val % 8 = 0 := by omega
  obtain ⟨hA, hD⟩ := partial_all m c t.val t.isLt
  have e8 : t.val % 8 + 1 = 8 := by omega
  rw [out_last m c t h0 h1]
  refine (Payloads.finish_apply (outsAt0 m c t.val t.isLt).2.2 (outsAt0 m c t.val t.isLt).2.1
    (iblk m c 2 t) (iblk m c 3 t) (iblk m c 4 t) p o).trans ?_
  unfold layer
  refine congrArg₂ max (congrArg₂ (· + ·) (Finset.sum_congr rfl fun c' _ => ?_) (Finset.sum_congr rfl fun c' _ => ?_)) rfl
  · rw [hA p c', hD p 0, Blocks.top_block m c t c' o, e8, psum_eight, psum_eight, ← hr]
  · rw [Blocks.own_block m c t p c', Blocks.bot_block m c t c' o, ← hr, wrap_fin]

end Cert.Gcn.Accum

end
-- ==== Proof.KernelValue.lean ====
/-
  From blocks to the whole result array.

  The output window's block (i, 0) is written back once, at the last point t = 8·i + 7 of row block i's run, and what
  is written there is the layer's value at the rows 1024·i … 1024·i + 1023.  Every row r lies in exactly such a block
  (i = r / 1024), so after the run the result array holds the layer's value at every entry.
-/
import proofs.«151971_j39573828666028_2_alg».proof.Proof.Gen.KernelIdeal.Value
import proofs.«151971_j39573828666028_2_alg».proof.Proof.KernelAccum

set_option maxRecDepth 16384

noncomputable section

open Idealize.ShloMosaic Idealize.ShloMosaic.TcCoe Idealize.SL.Sem
open Idealize.ShloMosaic.Pipeline (Dat)

namespace Cert.Gcn.KernelValue

open Cert.KernelIdeal Cert.KernelIdeal.Gen Idealize.ShloMosaic.ValueIdx Cert.Gcn Cert.Gcn.Accum

variable (m : (ℓ : Loc nD τ sig) → Buf (Elt Ideal) ℓ) (ρ : Dev nD → PrngReg)

/-- The layer's value at every entry, from the arguments as launched. -/
def result (c : Dev nD) : Mat 8192 256 := fun i => layer (argA m c) (argU m c) (argV m c) (argW m c) (i 0) (i 1)

/-- What a writing point writes back is its block of `result`. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  obtain ⟨-, -, -, -, -, ⟨g0, g1⟩⟩ := Blocks.idx_facts t
  have ht := Blocks.point_lt t
  rw [Cert.KernelIdeal.Value.flushed5]
  funext y
  have hy0 : (y 0).val < 1024 := (y 0).isLt
  have hy1 : (y 1).val < 256 := (y 1).isLt
  show (outsAt0 m c t.val t.isLt).1 y
    = layer (argA m c) (argU m c) (argV m c) (argW m c) ((((cfg0.win 5).blk t).view.emb y) 0) ((((cfg0.win 5).blk t).view.emb y) 1)
  have e1 : (((cfg0.win 5).blk t).view.emb y) 1 = y 1 :=
    Fin.ext (by show win0_5.index t 1 * 256 + 1 * (y 1).val = (y 1).val; rw [g1]; omega)
  rw [e1]
  refine (congrArg (outsAt0 m c t.val t.isLt).1 (eq_ix2 y)).trans ?_
  exact out_block m c t h7 (y 0) (y 1) _
    (by show win0_5.index t 0 * 1024 + 1 * (y 0).val = 1024 * (t.val / 8) + (y 0).val; rw [g0]; omega)

/-- Every entry of the result lies in the block of a writing point. -/
theorem cover (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : 8 * ((i 0).val / 1024) + 7 < cfg0.N := lt_of_lt_of_eq (by omega) N_0.symm
  obtain ⟨t, ht⟩ : ∃ t : Fin cfg0.N, t.val = 8 * ((i 0).val / 1024) + 7 := ⟨⟨_, hN⟩, rfl⟩
  obtain ⟨-, -, -, -, -, ⟨g0, g1⟩⟩ := Blocks.idx_facts t
  refine ⟨t, (flush0_5 t).mpr (by omega), ?_⟩
  show i ∈ ((View.whole main_v2).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [g0]; omega
  | ⟨1, _⟩ =>
    show win0_5.index t 1 * 256 ≤ (i 1).val ∧ (i 1).val < win0_5.index t 1 * 256 + 256
    rw [g1]; omega

/-- The result array after the run. -/
theorem final (c : Dev nD) : (dats m 0 c).arrAt 5 cfg0.N = result m c :=
  (dats m 0 c).arrAt_eq_of_cover 5 (result m c) (flushed_eq m c) cover

/-- Every weakly fair execution of the kernel terminates with the result array at the layer's value and the
    arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Gcn.KernelValue

end
-- ==== Proof.LibDotNN.lean ====
/-
  A reusable lemma: a host matrix product read at an entry.

  A `dot_general` of an [M, K] operand by a [K, N] operand — contracting axis 1 of the left with axis 0 of the right, no
  batch axes — read over the extended reals at the output entry (p, q) is the inner product of row p of the left operand
  with column q of the right one:  (L · R)[p, q] = Σ_{k < K} L[p, k] · R[k, q].
  Generic in the extents M, K, N and in the operands' float formats; the dimension record may be any one that equals the
  plain M×K by K×N record (a printed program's own record does, by unfolding).
-/
import proofs.«151971_j39573828666028_2_alg».proof.Proof.LibMatmulNN
import Idealize.ShloMosaic.PureOps.Ideal.Laws
import Idealize.ShloMosaic.Lib.ValueIdx

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    Host.dotGeneral D prec lhs rhs (ix2 p q) = ∑ k : Fin K, lhs (ix2 p k) * rhs (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [MatmulNN.lhsIdx_plain, MatmulNN.rhsIdx_plain]

end Cert.DotNN

end
-- ==== Proof.LibConcatCols.lean ====
/-
  A reusable lemma: two matrices with the same number of rows laid side by side, read at an entry.

  The concatenation along axis 1 of an [M, a] array and an [M, b] array into an [M, c] array (c = a + b), at (p, j):
  the left piece at (p, j) when j is below a, the right piece at (p, j - a) otherwise. Generic in M, a, b, c and in the
  element type; the column of the piece is passed with its defining equation, so a use site picks its own spelling.
-/
import Idealize.ShloMosaic.Lib.Pipeline.Value
import Idealize.ShloMosaic.Lib.ValueIdx

noncomputable section

namespace Cert.ConcatCols

open Idealize.ShloMosaic Idealize.ShloMosaic.ValueIdx

variable {α : Type} {M a b c : ℕ}

/-- A column in the left piece: the left piece at the same row and the same column. -/
theorem left_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin a) (hk : k.val = j.val) :
    concatenate ⟨2, ![M, c]⟩ 1 [⟨⟨2, ![M, a]⟩, x₁⟩, ⟨⟨2, ![M, b]⟩, x₂⟩] h (ix2 p j) = x₁ (ix2 p k) :=
  concatenate_pair_apply_left 1 x₁ x₂ h (ix2 p j) rfl (ix2 p k)
    (fun d => match d with | ⟨0, _⟩ => rfl | ⟨1, _⟩ => hk)

/-- A column past the left piece: the right piece at the same row, the column less the left piece's width. -/
theorem right_apply (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1)
    (p : Fin M) (j : Fin c) (k : Fin b) (hk : k.val + a = j.val) :
    concatenate ⟨2, ![M, c]⟩ 1 [⟨⟨2, ![M, a]⟩, x₁⟩, ⟨⟨2, ![M, b]⟩, x₂⟩] h (ix2 p j) = x₂ (ix2 p k) :=
  concatenate_pair_apply_right 1 x₁ x₂ h (ix2 p j) rfl rfl (ix2 p k)
    (fun d hd => match d, hd with
      | ⟨0, _⟩, _ => rfl
      | ⟨1, _⟩, hd => absurd rfl hd) hk

/-- Both cases at once (`hc`: the widths add up): the entry comes from the left piece when its column is below the left
    piece's width, from the right piece otherwise. -/
theorem apply_dite (x₁ : (⟨2, ![M, a]⟩ : Shape).Idx → α) (x₂ : (⟨2, ![M, b]⟩ : Shape).Idx → α)
    (h : Shape.Concatenates [⟨2, ![M, a]⟩, ⟨2, ![M, b]⟩] ⟨2, ![M, c]⟩ 1) (hc : c = a + b)
    (p : Fin M) (j : Fin c) :
    concatenate ⟨2, ![M, c]⟩ 1 [⟨⟨2, ![M, a]⟩, x₁⟩, ⟨⟨2, ![M, b]⟩, x₂⟩] h (ix2 p j)
      = if hj : j.val < a then x₁ (ix2 p ⟨j.val, hj⟩)
        else x₂ (ix2 p ⟨j.val - a, by have := j.isLt; omega⟩) := by
  by_cases hj : j.val < a
  · rw [dif_pos hj]
    exact left_apply x₁ x₂ h p j ⟨j.val, hj⟩ rfl
  · rw [dif_neg hj]
    exact right_apply x₁ x₂ h p j ⟨j.val - a, by have := j.isLt; omega⟩ (by show j.val - a + a = j.val; omega)

end Cert.ConcatCols

end
-- ==== Proof.LibHostBroadcasts.lean ====
/-
  Reusable lemmas: how a host program spreads a scalar, a vector or a column over a larger array, read at an entry.

  jnp lowers broadcasting to `broadcast_in_dim` with an explicit map from the operand's axes to the result's:
    a scalar [] to any shape (no axes mapped):      every entry is the scalar;
    a vector [T] to a column [T, 1] (dims [0]):     entry (e, u) is the vector's entry e;
    a column [T, 1] to a matrix [T, C] (dims [0,1]): entry (e, c) is the column's entry (e, 0).
  Generic in the extents and in the element type.
-/
import Idealize.ShloMosaic.Lib.Pipeline.Value
import Idealize.ShloMosaic.Lib.ValueIdx

noncomputable section

namespace Cert.HostBroadcasts

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector viewed as a column reads, at (e, u), the vector's entry e. -/
theorem col_apply {T : ℕ} (v : (⟨1, ![T]⟩ : Shape).Idx → α)
    (h : (⟨1, ![T]⟩ : Shape).BroadcastsInDim ⟨2, ![T, 1]⟩ ![0]) (e : Fin T) (u : Fin 1) :
    broadcastInDim ⟨2, ![T, 1]⟩ ![0] h v (ix2 e u) = v (ix1 e) := by
  refine broadcastInDim_apply ![0] h v (ix2 e u) (ix1 e) fun ax => ?_
  match ax with
  | ⟨0, _⟩ =>
    show e.val = if T = 1 then 0 else e.val
    split
    · have := e.isLt; omega
    · rfl

/-- A column repeated along the rows' entries reads, at (e, c), the column's entry (e, 0). -/
theorem col_rows_apply {T C : ℕ} (v : (⟨2, ![T, 1]⟩ : Shape).Idx → α)
    (h : (⟨2, ![T, 1]⟩ : Shape).BroadcastsInDim ⟨2, ![T, C]⟩ ![0, 1]) (e : Fin T) (c : Fin C) :
    broadcastInDim ⟨2, ![T, C]⟩ ![0, 1] h v (ix2 e c) = v (ix2 e (0 : Fin 1)) := by
  refine broadcastInDim_apply ![0, 1] h v (ix2 e c) (ix2 e (0 : Fin 1)) fun ax => ?_
  match ax with
  | ⟨0, _⟩ =>
    show e.val = if T = 1 then 0 else e.val
    split
    · have := e.isLt; omega
    · rfl
  | ⟨1, _⟩ => rfl

end Cert.HostBroadcasts

end
-- ==== Proof.RefValue.lean ====
/-
  The reference program's result at an entry is the layer's value, for real-valued A and V.

  Reading the reference's straight line at the entry (r, o), over the extended reals:
    * the degree of row r: the comparison bits of row r, widened to 32-bit words and added up as words, then converted
      to a float — the count of the row's positive entries, i.e. the sum of the entries' marks (8192 words, each 0 or
      1, cannot overflow a signed 32-bit word);
    * the scale d r of row r, from that degree, is the same expression the blocked program evaluates;
    * the aggregate at (r, c) is Σ_j (A[r,j] · d r) · V[j,c], and the final product runs over the 512 columns of the
      aggregate laid beside U: the first 256 against the weight's top half, the last 256 against its bottom half.
  The reference scales every entry of A before the sum over j, the layer scales the sum: for real A and V (and the
  scale is always real) these agree.  This is the one place where the inputs' finiteness is needed.
-/
import proofs.«151971_j39573828666028_2_alg».proof.Proof.RefRun
import proofs.«151971_j39573828666028_2_alg».proof.Proof.Spec
import proofs.«151971_j39573828666028_2_alg».proof.Proof.LibDotNN
import proofs.«151971_j39573828666028_2_alg».proof.Proof.LibConcatCols
import proofs.«151971_j39573828666028_2_alg».proof.Proof.LibHostBroadcasts
import proofs.«151971_j39573828666028_2_alg».proof.Proof.LibSlabLayout
import proofs.«151971_j39573828666028_2_alg».proof.Proof.LibRealEntries
import Idealize.ShloMosaic.Lib.IdealHost
import Idealize.ShloMosaic.Lib.ValueIdx
import Idealize.ShloMosaic.PureOps.Reduce

noncomputable section

namespace Cert.Gcn.RefValue

open Idealize.ShloMosaic Idealize.ShloMosaic.ValueIdx Cert.ReferenceIdeal Cert.ReferenceIdeal.Gen Cert.ReferenceIdeal.RefRun Cert.Gcn Cert.RealEntries

variable (A : FVec Ideal S8192x8192 .f32) (U Vf : FVec Ideal S8192x256 .f32) (W : FVec Ideal S512x256 .f32)

/-- The degree of row r is the sum of the marks of its entries. -/
theorem degOf_apply (r : Fin 8192) : degOf (F := Ideal) A (ix1 r) = ∑ j : Fin 8192, degTerm A r.val j.val := by
  have hred : S8192x8192.Reduces [(1 : Fin 2)] S8192 := by decide
  unfold degOf
  refine (sitofp_apply _ _).trans ?_
  rw [Host.reduce_eq_fold_single IntOp.addi _ _ reducesTo_S8192x8192_S8192_d1 hred h_S_ (ix1 r)]
  show (((((Finset.univ : Finset (Fin 8192)).fold IntOp.addi 0#32
      (fun k : Fin 8192 => (Ideal.cmp .ogt (A (hred.lift (ix1 r) k)) (Ideal.ofBits .f32 0x00000000#32)).setWidth 32)).toInt : ℝ)) : EReal) = _
  rw [count_words (by norm_num) _ (fun k => setWidth_bit_le_one _)]
  refine Finset.sum_congr rfl fun j _ => ?_
  rw [Cert.SlabLayout.lift_row hred r j, Ideal.ofBits_zero_f32]
  unfold degTerm mark
  rw [wrap_fin, wrap_fin]

/-- The scale of row r is the layer's scale of the row's degree. -/
theorem scaleOf_apply (r : Fin 8192) :
    scaleOf (F := Ideal) A (ix1 r) = invDeg (∑ j : Fin 8192, degTerm A r.val j.val) := by
  rw [← degOf_apply A r]
  rfl

/-- The scale spread over the adjacency's shape reads the row's scale at every column. -/
theorem scaleMat_apply (r j : Fin 8192) :
    broadcastInDim S8192x8192 ![0, 1] bcast_S8192x1_S8192x8192_0_1
        (broadcastInDim S8192x1 ![0] bcast_S8192_S8192x1_0 (scaleOf (F := Ideal) A)) (ix2 r j)
      = invDeg (∑ j' : Fin 8192, degTerm A r.val j'.val) :=
  ((Cert.HostBroadcasts.col_rows_apply _ _ r j).trans (Cert.HostBroadcasts.col_apply _ _ r 0)).trans (scaleOf_apply A r)

/-- The reference's result at (r, o) is the layer's value there, for real A and V. -/
theorem refOut_apply (hA : AllReal A) (hV : AllReal Vf) (r : Fin 8192) (o : Fin 256) :
    refOut (F := Ideal) A U Vf W (ix2 r o) = layer A U Vf W r o := by
  have hd : IsR (invDeg (∑ j : Fin 8192, degTerm A r.val j.val)) :=
    invDeg_isR (IsR.sum _ _ fun j _ => mark_isR _)
  unfold refOut layer
  refine (maximumf_apply _ _ _).trans ?_
  refine congrArg₂ max ?_ rfl
  refine (Cert.DotNN.dotGeneral_apply dot_S8192x512_S512x256_S8192x256_1_0_0_1_n_n rfl none _ _ r o).trans ?_
  rw [sum_halves]
  refine congrArg₂ (· + ·) (Finset.sum_congr rfl fun c _ => ?_) (Finset.sum_congr rfl fun c _ => ?_)
  · refine congrArg (· * W (ix2 (topRow c) o)) ?_
    refine (Cert.ConcatCols.left_apply _ _ concatenates_S8192x256_S8192x256_S8192x512_d1 r (topRow c) c rfl).trans ?_
    refine (Cert.DotNN.dotGeneral_apply dot_S8192x8192_S8192x256_S8192x256_1_0_0_1_n_n rfl none _ _ r c).trans ?_
    have e : ∀ j : Fin 8192,
        (mulf A (broadcastInDim S8192x8192 ![0, 1] bcast_S8192x1_S8192x8192_0_1
            (broadcastInDim S8192x1 ![0] bcast_S8192_S8192x1_0 (scaleOf (F := Ideal) A)))) (ix2 r j) * Vf (ix2 j c)
          = (A (ix2 r j) * invDeg (∑ j' : Fin 8192, degTerm A r.val j'.val)) * Vf (ix2 j c) := fun j => by
      rw [mulf_apply, scaleMat_apply]
    refine (Finset.sum_congr rfl fun j _ => e j).trans ?_
    refine (scale_row (fun j : Fin 8192 => A (ix2 r j)) (fun j : Fin 8192 => Vf (ix2 j c))
      (invDeg (∑ j' : Fin 8192, degTerm A r.val j'.val)) (fun j => hA _) (fun j => hV _) hd).trans ?_
    refine congrArg (· * invDeg (∑ j' : Fin 8192, degTerm A r.val j'.val)) (Finset.sum_congr rfl fun j _ => ?_)
    unfold aggTerm
    rw [wrap_fin, wrap_fin]
  · refine congrArg (· * W (ix2 (botRow c) o)) ?_
    exact Cert.ConcatCols.right_apply _ _ concatenates_S8192x256_S8192x256_S8192x512_d1 r (botRow c) c
      (by show c.val + 256 = 256 + c.val; omega)

end Cert.Gcn.RefValue

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«151971_j39573828666028_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.Finite.lean ====
/-
  The precondition read over the extended reals: every entry of the adjacency and of the neighbour features is a
  real number.

  The precondition is the conjunction, argument by argument, of all(|x| < +∞).  Its value being true says each
  conjunct is true, and a conjunct being true says every entry of that argument is neither infinity.  Only the
  adjacency and the neighbour features are needed below.
-/
import proofs.«151971_j39573828666028_2_alg».proof.Pre_finite_inputs
import proofs.«151971_j39573828666028_2_alg».proof.Proof.LibFiniteInputs

noncomputable section

namespace Cert.Gcn.Finite

open Idealize.ShloMosaic Idealize.ShloMosaic.ValueIdx Cert.Pre_finite_inputs Cert.Pre_finite_inputs.Facts Cert.RealEntries

instance : Subsingleton S_.Idx := ⟨fun a b => funext fun d => d.elim0⟩

theorem and_bits : ∀ c d : BitVec 1, IntOp.andi c d = 1#1 → c = 1#1 ∧ d = 1#1 := by decide

/-- Under the precondition the adjacency (first argument) and the neighbour features (third argument) are real. -/
theorem real_args [hP : Cert.Pre_finite_inputs.Facts] (A : FVec Ideal S8192x8192 .f32) (U Vf : FVec Ideal S8192x256 .f32)
    (W : FVec Ideal S512x256 .f32) (h : Cert.Pre_finite_inputs.fn (F := Ideal) A U Vf W = fun _ => 1#1) :
    AllReal A ∧ AllReal Vf := by
  have h0 := congrFun h ix0
  dsimp only [Cert.Pre_finite_inputs.fn, Cert.Pre_finite_inputs.fn_part1] at h0
  obtain ⟨h13, -⟩ := and_bits _ _ h0
  obtain ⟨h8, h12⟩ := and_bits _ _ h13
  obtain ⟨h3, -⟩ := and_bits _ _ h8
  exact ⟨allReal_of_all_finite A _ _ _ _ ix0 h3, allReal_of_all_finite Vf _ _ _ _ ix0 h12⟩

end Cert.Gcn.Finite

end
-- ==== Proof.lean ====
/-
  A graph-convolution layer with mean aggregation, computed in blocks, against its plain definition.

  For an adjacency matrix A [8192, 8192], own features U [8192, 256], neighbour features V [8192, 256] and a weight
  W [512, 256], with deg r the number of positive entries of row r of A and d r = 1 / max (deg r) 1 where deg r > 0
  and 0 elsewhere, both programs compute

      out (r, o) = max (Σ_c agg[r,c] · W[c,o] + Σ_c U[r,c] · W[256 + c,o]) 0,      agg = "D · A · V".

  The blocked program walks an 8 × 8 grid: for a row block it adds up, over eight column blocks of 1024, the partial
  products A·V and the partial counts of positive entries, and at the last column block scales the aggregate by d r
  and applies the two halves of the weight.  The plain program scales every entry of A by d r first, multiplies by V,
  lays the aggregate beside U and multiplies by the whole weight.

  Over the extended reals the two agree when A and V hold real numbers, which the precondition (all inputs finite)
  provides: regrouping a sum into blocks and splitting the 512-column product in two halves are always valid, and
  moving the row's scale across the sum over the neighbours is valid for real entries.  The count of positive entries
  is the same number whether 0/1 floats are added (the blocked program) or 0/1 words are added and converted (the
  plain one): 8192 ones cannot overflow a signed 32-bit word.

  The five conjuncts: the three frames (both kernels' frames are the generated runs; the plain program's frame is its
  run with the result dropped), the one recorded rewrite of the idealization (a round trip through bf16, the identity
  over the extended reals and the bf16 rounding on words), and the equality of the two results.
-/
import proofs.«151971_j39573828666028_2_alg».proof.Defs
import proofs.«151971_j39573828666028_2_alg».proof.Proof.Gen.Kernel
import proofs.«151971_j39573828666028_2_alg».proof.Proof.Gen.Kernel.Skeleton
import proofs.«151971_j39573828666028_2_alg».proof.Proof.Gen.Kernel.Launch
import proofs.«151971_j39573828666028_2_alg».proof.Proof.Gen.Kernel.Points
import proofs.«151971_j39573828666028_2_alg».proof.Proof.Gen.Kernel.Frame
import proofs.«151971_j39573828666028_2_alg».proof.Proof.Gen.KernelIdeal
import proofs.«151971_j39573828666028_2_alg».proof.Proof.Gen.KernelIdeal.Skeleton
import proofs.«151971_j39573828666028_2_alg».proof.Proof.Gen.KernelIdeal.Launch
import proofs.«151971_j39573828666028_2_alg».proof.Proof.Gen.KernelIdeal.Points
import proofs.«151971_j39573828666028_2_alg».proof.Proof.Gen.KernelIdeal.Frame
import proofs.«151971_j39573828666028_2_alg».proof.Proof.Gen.ReferenceIdeal
import proofs.«151971_j39573828666028_2_alg».proof.Proof.Gen.Pre_finite_inputs
import proofs.«151971_j39573828666028_2_alg».proof.Proof.Gen.KernelIdeal.Value
import proofs.«151971_j39573828666028_2_alg».proof.Proof.RefRun
import proofs.«151971_j39573828666028_2_alg».proof.Proof.KernelValue
import proofs.«151971_j39573828666028_2_alg».proof.Proof.RefValue
import proofs.«151971_j39573828666028_2_alg».proof.Proof.Finite
import Idealize.ShloMosaic.Adequacy
import Idealize.ShloMosaic.Init

noncomputable section

namespace Cert.Proof

open Idealize.ShloMosaic Idealize.ShloMosaic.ValueIdx Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the plain program: its run, with the statement about the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The one recorded rewrite: a [1024, 1024] array narrowed to bf16 and widened back is itself over the extended
    reals, and the bf16 rounding of each word at the word level. -/
theorem preserves : Cert.preserves_Kernel_KernelIdeal :=
  IdealRules.truncf_extf.statement Cert.KernelIdeal.S1024x1024 .f32 .bf16

/-- From arguments that agree and are finite, both programs end with the layer's value at every entry. -/
theorem algebraic : Cert.algebraic_KernelIdeal_ReferenceIdeal := by
  intro m ρ m' ρ' hpre hagree
  refine ⟨fun c => Cert.Gcn.KernelValue.result m c, Cert.Gcn.KernelValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨hA, hV⟩ := Cert.Gcn.Finite.real_args _ _ _ _ (hpre c)
  rw [(hagree c).1, (hagree c).2.1, (hagree c).2.2.1, (hagree c).2.2.2]
  funext i
  refine (congrArg (Cert.ReferenceIdeal.RefRun.refOut _ _ _ _) (eq_ix2 i)).trans ?_
  exact Cert.Gcn.RefValue.refOut_apply _ _ _ _ hA hV (i 0) (i 1)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
